-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel

variable [Facts]

def fn {F : FTy → Type} [FloatOps F] (main_arg0 : FVec F S32x64x64x64 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  main_v3
-- ==== Kernel.lean ====
abbrev S32x64x64x64 : Shape := ⟨4, ![32, 64, 64, 64]⟩
abbrev S32x128x128x64 : Shape := ⟨4, ![32, 128, 128, 64]⟩
abbrev S1x64x64x64 : Shape := ⟨4, ![1, 64, 64, 64]⟩
abbrev S1x128x128x64 : Shape := ⟨4, ![1, 128, 128, 64]⟩
abbrev S64x64x64 : Shape := ⟨3, ![64, 64, 64]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S128x128x1 : Shape := ⟨3, ![128, 128, 1]⟩
abbrev S128x128x64 : Shape := ⟨3, ![128, 128, 64]⟩

abbrev nBuf : Space → Nat
  | .hbm => 2
  | .vmem => 4
  | .smem => 0
  | _ => 0

abbrev bufTy : (tb : Table) → Fin (tcTables nBuf tb) → BufTy
  | .hbm, ⟨0, _⟩ => ⟨S32x64x64x64, .f32⟩
  | .hbm, ⟨1, _⟩ => ⟨S32x128x128x64, .f32⟩
  | .local _ .vmem, ⟨0, _⟩ => ⟨S1x64x64x64, .f32⟩
  | .local _ .vmem, ⟨1, _⟩ => ⟨S1x64x64x64, .f32⟩
  | .local _ .vmem, ⟨2, _⟩ => ⟨S1x128x128x64, .f32⟩
  | .local _ .vmem, ⟨3, _⟩ => ⟨S1x128x128x64, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  reduces_S64x64x64_S64x64 : S64x64x64.Reduces [2] S64x64
  shapeCasts_S64x64_S64x1x64x1 : S64x64.ShapeCasts S64x1x64x1
  shapeCasts_S64x1x64x1_S64x1x64x1 : S64x1x64x1.ShapeCasts S64x1x64x1
  broadcasts_S64x1x64x1_S64x2x64x2 : S64x1x64x1.Broadcasts S64x2x64x2
  shapeCasts_S64x2x64x2_S128x128 : S64x2x64x2.ShapeCasts S128x128
  shapeCasts_S128x128_S128x128x1 : S128x128.ShapeCasts S128x128x1
  shapeCasts_S128x128x1_S128x128x1 : S128x128x1.ShapeCasts S128x128x1
  broadcasts_S128x128x1_S128x128x64 : S128x128x1.Broadcasts S128x128x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  shapeCasts_S128x128x64_S1x128x128x64 : S128x128x64.ShapeCasts S1x128x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S32x64x64x64.size a
  hwx0_0 : ∀ i : grid0.Coords, EltTy.bits .f32 = 32 ∨ (Rect.block (s := S32x64x64x64) S1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x64.size a ≤ S32x128x128x64.size a
  hwx0_1 : ∀ i : grid0.Coords, EltTy.bits .f32 = 32 ∨ (Rect.block (s := S32x128x128x64) S1x128x128x64.size (cc0_transform_1 i) (hinb0_1 i)).WholeWords (EltTy.packing .f32)

variable [Facts₀]

abbrev win0_0 : Pipeline.Window sig grid0 :=
  Pipeline.Window.ofSpec (Memref.whole main_arg0) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x64 : Shape := ⟨4, ![32, 64, 64, 64]⟩
abbrev S_ : Shape := ⟨0, ![]⟩
abbrev S32x64x64 : Shape := ⟨3, ![32, 64, 64]⟩
abbrev S32x64x64x1 : Shape := ⟨4, ![32, 64, 64, 1]⟩
abbrev S32x64x2x64x1 : Shape := ⟨5, ![32, 64, 2, 64, 1]⟩
abbrev S32x128x64x1 : Shape := ⟨4, ![32, 128, 64, 1]⟩
abbrev S32x128x64x2x1 : Shape := ⟨5, ![32, 128, 64, 2, 1]⟩
abbrev S32x128x128x1 : Shape := ⟨4, ![32, 128, 128, 1]⟩
abbrev S32x128x128x64 : Shape := ⟨4, ![32, 128, 128, 64]⟩

abbrev nBuf : Space → Nat
  | .hbm => 12
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S_, .f32⟩
  | .hbm, ⟨2, _⟩ => ⟨S32x64x64, .f32⟩
  | .hbm, ⟨3, _⟩ => ⟨S32x64x64x1, .f32⟩
  | .hbm, ⟨4, _⟩ => ⟨S32x64x2x64x1, .f32⟩
  | .hbm, ⟨5, _⟩ => ⟨S32x128x64x1, .f32⟩
  | .hbm, ⟨6, _⟩ => ⟨S32x128x64x2x1, .f32⟩
  | .hbm, ⟨7, _⟩ => ⟨S32x128x128x1, .f32⟩
  | .hbm, ⟨8, _⟩ => ⟨S_, .f32⟩
  | .hbm, ⟨9, _⟩ => ⟨S32x128x128x1, .f32⟩
  | .hbm, ⟨10, _⟩ => ⟨S32x128x128x1, .f32⟩
  | .hbm, ⟨11, _⟩ => ⟨S32x128x128x64, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S32x64x64x64_S32x64x64_d3 : S32x64x64x64.ReducesTo [3] S32x64x64
  h_S_ : 0 < S_.numel
  bcast_S32x64x64_S32x64x64x1_0_1_2 : S32x64x64.BroadcastsInDim S32x64x64x1 (![0, 1, 2] : Fin 3 → Fin S32x64x64x1.rank)
  bcast_S32x64x64x1_S32x64x2x64x1_0_1_3_4 : S32x64x64x1.BroadcastsInDim S32x64x2x64x1 (![0, 1, 3, 4] : Fin 4 → Fin S32x64x2x64x1.rank)
  shapeCasts_S32x64x2x64x1_S32x128x64x1 : S32x64x2x64x1.ShapeCasts S32x128x64x1
  bcast_S32x128x64x1_S32x128x64x2x1_0_1_2_4 : S32x128x64x1.BroadcastsInDim S32x128x64x2x1 (![0, 1, 2, 4] : Fin 4 → Fin S32x128x64x2x1.rank)
  shapeCasts_S32x128x64x2x1_S32x128x128x1 : S32x128x64x2x1.ShapeCasts S32x128x128x1
  bcast_S_S32x128x128x1 : S_.BroadcastsInDim S32x128x128x1 (![] : Fin 0 → Fin S32x128x128x1.rank)
  bcast_S32x128x128x1_S32x128x128x64_0_1_2_3 : S32x128x128x1.BroadcastsInDim S32x128x128x64 (![0, 1, 2, 3] : Fin 4 → Fin S32x128x128x64.rank)

variable [Facts₀]

class Facts : Prop extends Facts₀ where

variable [Facts]
-- ==== Proof.Spec.lean ====
/-
  The function both programs compute: a channel sum, scaled, copied to a doubled grid.

  For an input array `X` over (b, h, w, c) in 32 x 64 x 64 x 64 the result over (b, y, x, o) in 32 x 128 x 128 x 64 is

      (sum over c < 64 of X (b, y / 2, x / 2, c)) * 64,

  the same value for every output channel `o`: each input pixel's channel sum, times the number of channels, fills the
  2 x 2 cell of output pixels above it (nearest-neighbour doubling: output row `y` copies input row `y / 2`, output column
  `x` copies input column `x / 2`). The scale stays the float word both programs print for 64.0; it is never evaluated,
  because the two sides carry the same word in the same place of the same product.

  No program is imported here: indices are built with the literal-size constructors `ix3`, `ix4`, `ix5`, rows and
  columns are halved by `half`, and `par` names the position inside a cell (it only appears where a reshape splits a
  doubled axis into (half, parity)).
-/
import Idealize.ShloMosaic.PureOps.Ideal
import Idealize.ShloMosaic.PureOps.Ideal.Laws
import Idealize.ShloMosaic.Lib.ValueIdx

noncomputable section

namespace Cert.Upsample

open Idealize.ShloMosaic Idealize.ShloMosaic.ValueIdx

/-- The input row (or column) an output row (or column) copies. -/
def half (a : Fin 128) : Fin 64 := ⟨a.val / 2, by have := a.isLt; omega⟩

/-- The position of an output row (or column) inside its cell of two. -/
def par (a : Fin 128) : Fin 2 := ⟨a.val % 2, by omega⟩

theorem half_val (a : Fin 128) : (half a).val = a.val / 2 := rfl
theorem par_val (a : Fin 128) : (par a).val = a.val % 2 := rfl

/-- The only index of a unit axis. -/
abbrev u0 : Fin 1 := ⟨0, Nat.one_pos⟩

/-- The result array as one function of the argument array, index by index. -/
def result (X : (⟨4, ![32, 64, 64, 64]⟩ : Shape).Idx → EReal) : (⟨4, ![32, 128, 128, 64]⟩ : Shape).Idx → EReal :=
  fun i => (∑ k : Fin 64, X (ix4 (i 0) (half (i 1)) (half (i 2)) k)) * Ideal.ofBits .f32 0x42800000#32

/-- The same at an index given by its four coordinates. -/
theorem result_ix4 (X : (⟨4, ![32, 64, 64, 64]⟩ : Shape).Idx → EReal) (b : Fin 32) (y x : Fin 128) (o : Fin 64) :
    result X (ix4 b y x o) = (∑ k : Fin 64, X (ix4 b (half y) (half x) k)) * Ideal.ofBits .f32 0x42800000#32 := rfl

end Cert.Upsample

end
-- ==== Proof.RefValue.lean ====
/-
  The reference's result, read index by index, is the common function.

  The reference sums the channels on the host (a sum started from the zero word), inserts a unit axis, and doubles
  rows and then columns by the same device each time: broadcast a new axis of extent 2 next to the axis, then reshape the
  pair (axis, 2) into one axis of twice the extent. A reshape keeps the row-major position, so the doubled coordinate
  `y` splits as (y / 2, y % 2) and the broadcast forgets the second part: output row `y` reads input row `y / 2`, and
  likewise for columns. It then multiplies by the splat of 64.0 and broadcasts over the 64 output channels.

  Each stage is read at an index by the generated read lemmas; what is written here is the composite of their index
  functions at an index given by literal coordinates, stage by stage (the two reshapes cost arithmetic, the
  broadcasts none), and the one law that meets the other side: a host sum is its initial value, here the zero word,
  that is the extended real 0, plus the plain finite sum.
-/
import proofs.«145988_j14018773254483_2_alg».proof.Proof.Gen.ReferenceIdeal.Read
import proofs.«145988_j14018773254483_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open Cert.Upsample

/-! ## The stages' index functions at literal coordinates -/

/-- The channel broadcast forgets the output channel. -/
theorem at8 (b : Fin 32) (y x : Fin 128) (o : Fin 64) : idx_main_v8 (ix4 b y x o) = ix4 b y x u0 :=
  funext fun a => by match a with | ⟨0, _⟩ => rfl | ⟨1, _⟩ => rfl | ⟨2, _⟩ => rfl | ⟨3, _⟩ => rfl

/-- The column reshape [32,128,64,2,1] → [32,128,128,1]: column `x` is (x / 2, x % 2). -/
theorem at5 (b : Fin 32) (y x : Fin 128) : idx_main_v5 (ix4 b y x u0) = ix5 b y (half x) (par x) u0 :=
  funext fun a => Fin.ext (by
    have hb : b.val < 32 := b.isLt
    have hy : y.val < 128 := y.isLt
    have hx : x.val < 128 := x.isLt
    match a with
    | ⟨0, _⟩ => show (((b.val * 128 + y.val) * 128 + x.val) * 1 + 0) / 16384 = b.val; omega
    | ⟨1, _⟩ => show (((b.val * 128 + y.val) * 128 + x.val) * 1 + 0) / 128 % 128 = y.val; omega
    | ⟨2, _⟩ => show (((b.val * 128 + y.val) * 128 + x.val) * 1 + 0) / 2 % 64 = x.val / 2; omega
    | ⟨3, _⟩ => show (((b.val * 128 + y.val) * 128 + x.val) * 1 + 0) / 1 % 2 = x.val % 2; omega
    | ⟨4, _⟩ => rfl)

/-- The column broadcast forgets the position inside the cell. -/
theorem at4 (b : Fin 32) (y : Fin 128) (w : Fin 64) (q : Fin 2) : idx_main_v4 (ix5 b y w q u0) = ix4 b y w u0 :=
  funext fun a => by match a with | ⟨0, _⟩ => rfl | ⟨1, _⟩ => rfl | ⟨2, _⟩ => rfl | ⟨3, _⟩ => rfl

/-- The row reshape [32,64,2,64,1] → [32,128,64,1]: row `y` is (y / 2, y % 2). -/
theorem at3 (b : Fin 32) (y : Fin 128) (w : Fin 64) : idx_main_v3 (ix4 b y w u0) = ix5 b (half y) (par y) w u0 :=
  funext fun a => Fin.ext (by
    have hb : b.val < 32 := b.isLt
    have hy : y.val < 128 := y.isLt
    have hw : w.val < 64 := w.isLt
    match a with
    | ⟨0, _⟩ => show (((b.val * 128 + y.val) * 64 + w.val) * 1 + 0) / 8192 = b.val; omega
    | ⟨1, _⟩ => show (((b.val * 128 + y.val) * 64 + w.val) * 1 + 0) / 128 % 64 = y.val / 2; omega
    | ⟨2, _⟩ => show (((b.val * 128 + y.val) * 64 + w.val) * 1 + 0) / 64 % 2 = y.val % 2; omega
    | ⟨3, _⟩ => show (((b.val * 128 + y.val) * 64 + w.val) * 1 + 0) / 1 % 64 = w.val; omega
    | ⟨4, _⟩ => rfl)

/-- The row broadcast forgets the position inside the cell. -/
theorem at2 (b : Fin 32) (h : Fin 64) (q : Fin 2) (w : Fin 64) : idx_main_v2 (ix5 b h q w u0) = ix4 b h w u0 :=
  funext fun a => by match a with | ⟨0, _⟩ => rfl | ⟨1, _⟩ => rfl | ⟨2, _⟩ => rfl | ⟨3, _⟩ => rfl

/-- The unit axis inserted after the sum is dropped again. -/
theorem at1 (b : Fin 32) (h w : Fin 64) : idx_main_v1 (ix4 b h w u0) = ix3 b h w :=
  funext fun a => by match a with | ⟨0, _⟩ => rfl | ⟨1, _⟩ => rfl | ⟨2, _⟩ => rfl

/-- The sum over the last axis reads channel `k` of the pixel. -/
theorem at0 (b : Fin 32) (h w : Fin 64) (k : Fin 64) : idx_main_v0 (ix3 b h w) k = ix4 b h w k :=
  funext fun a => by match a with | ⟨0, _⟩ => rfl | ⟨1, _⟩ => rfl | ⟨2, _⟩ => rfl | ⟨3, _⟩ => rfl

/-- All of them composed: output index (b, y, x, o) reads input pixel (b, y / 2, x / 2), channel `k`. -/
theorem source (b : Fin 32) (y x : Fin 128) (o : Fin 64) (k : Fin 64) :
    idx_main_v0 (idx_main_v1 (idx_main_v2 (idx_main_v3 (idx_main_v4 (idx_main_v5 (idx_main_v8 (ix4 b y x o))))))) k
      = ix4 b (half y) (half x) k := by
  rw [at8, at5, at4, at3, at2, at1, at0]

/-! ## The reference is the common function -/

/-- The reference's last stage at an index: the zero word plus the channel sum of the source pixel, times the 64.0 word;
    the zero word is the extended real 0 and drops out. -/
theorem stage_at (X : (⟨S32x64x64x64, .f32⟩ : BufTy).Contents (Elt Ideal)) (b : Fin 32) (y x : Fin 128) (o : Fin 64) :
    val_main_v8 (F := Ideal) X (ix4 b y x o)
      = (∑ k : Fin 64, X (ix4 b (half y) (half x) k)) * Ideal.ofBits .f32 0x42800000#32 := by
  rw [val_main_v8_apply, val_main_v7_apply, val_main_v5_apply, val_main_v4_apply, val_main_v3_apply, val_main_v2_apply,
    val_main_v1_apply, val_main_v0_apply, val_main_v6_apply, val_main_cst_0_apply, val_main_cst_apply]
  simp only [source, Ideal.mulf_def, Ideal.ofBits_def, Ideal.ofBits_zero_f32, zero_add]

/-- The reference's result array is the common function of its argument array. -/
theorem stage_eq (X : (⟨S32x64x64x64, .f32⟩ : BufTy).Contents (Elt Ideal)) :
    val_main_v8 (F := Ideal) X = Cert.Upsample.result X := by
  funext i
  obtain ⟨b, y, x, o, rfl⟩ : ∃ (b : Fin 32) (y x : Fin 128) (o : Fin 64), i = ix4 b y x o := ⟨i 0, i 1, i 2, i 3, eq_ix4 i⟩
  rw [stage_at, result_ix4]

end Cert.ReferenceIdeal.RefValue

end
-- ==== Proof.Payload.lean ====
/-
  The kernel body's stored value, read at an index.

  The body loads its [1,64,64,64] input block, drops the unit axis, sums the last axis (the 64 channels) into a [64,64]
  image, multiplies by the splat of the 64.0 word, and then re-lays that image without computing anything more:
  [64,64] is viewed as [64,1,64,1], broadcast to [64,2,64,2] (every pixel becomes a 2 x 2 cell), viewed as [128,128],
  given a trailing unit axis, broadcast over the 64 output channels, and given a leading unit axis to be stored as the
  [1,128,128,64] output block.

  A view change keeps the row-major position and a broadcast forgets the coordinates of the axes it creates, so at the
  block index (z, y, x, o) the stored value is the image at (y / 2, x / 2): the doubled coordinate `y` is the pair
  (y / 2, y % 2) of the [64,2] split, and the broadcast forgets `y % 2`. One lemma per step, each over a variable vector
  and literal coordinates; the sum over the last axis is the plain finite sum of the 64 entries.
-/
import proofs.«145988_j14018773254483_2_alg».proof.Proof.Gen.KernelIdeal.Skeleton
import proofs.«145988_j14018773254483_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx
open Cert.Upsample

variable {α : Type}

/-! ## The layout steps, outermost first -/

/-- [128,128,64] stored as a [1,128,128,64] block: the leading coordinate is 0 and the rest are kept. -/
theorem lead_at (v : S128x128x64.Idx → α) (h : S128x128x64.ShapeCasts S1x128x128x64) (z : Fin 1) (y x : Fin 128) (o : Fin 64) :
    shapeCast S1x128x128x64 v h (ix4 z y x o) = v (ix3 y x o) :=
  shapeCast_apply v h _ _ (by
    rw [Shape.rowMajor_val_three, Shape.rowMajor_val_four]
    show (y.val * 128 + x.val) * 64 + o.val = ((z.val * 128 + y.val) * 128 + x.val) * 64 + o.val
    have := z.isLt; omega)

/-- The broadcast over the output channels forgets the channel. -/
theorem channels_at (v : S128x128x1.Idx → α) (h : S128x128x1.Broadcasts S128x128x64) (y x : Fin 128) (o : Fin 64) :
    broadcastTo S128x128x64 v h (ix3 y x o) = v (ix3 y x u0) :=
  broadcastTo_apply v h _ _ (fun a => match a with
    | ⟨0, _⟩ => by show y.val = if (128 : Nat) = 1 then 0 else y.val; rw [if_neg (by decide)]
    | ⟨1, _⟩ => by show x.val = if (128 : Nat) = 1 then 0 else x.val; rw [if_neg (by decide)]
    | ⟨2, _⟩ => by show (0 : Nat) = if (1 : Nat) = 1 then 0 else o.val; rw [if_pos rfl])

/-- [128,128] with a trailing unit axis. -/
theorem trail_at (v : S128x128.Idx → α) (h : S128x128.ShapeCasts S128x128x1) (y x : Fin 128) :
    shapeCast S128x128x1 v h (ix3 y x u0) = v (ix2 y x) :=
  shapeCast_apply v h _ _ (by
    rw [Shape.rowMajor_val_two, Shape.rowMajor_val_three]
    show y.val * 128 + x.val = (y.val * 128 + x.val) * 1 + 0
    omega)

/-- [64,2,64,2] viewed as [128,128]: row `y` is (y / 2, y % 2), column `x` is (x / 2, x % 2). -/
theorem cells_at (v : S64x2x64x2.Idx → α) (h : S64x2x64x2.ShapeCasts S128x128) (y x : Fin 128) :
    shapeCast S128x128 v h (ix2 y x) = v (ix4 (half y) (par y) (half x) (par x)) :=
  shapeCast_apply v h _ _ (by
    rw [Shape.rowMajor_val_four, Shape.rowMajor_val_two]
    show ((y.val / 2 * 2 + y.val % 2) * 64 + x.val / 2) * 2 + x.val % 2 = y.val * 128 + x.val
    have := y.isLt; have := x.isLt; omega)

/-- The broadcast of a pixel to its 2 x 2 cell forgets the position inside the cell. -/
theorem cell_at (v : S64x1x64x1.Idx → α) (h : S64x1x64x1.Broadcasts S64x2x64x2) (r : Fin 64) (p : Fin 2) (w : Fin 64) (q : Fin 2) :
    broadcastTo S64x2x64x2 v h (ix4 r p w q) = v (ix4 r u0 w u0) :=
  broadcastTo_apply v h _ _ (fun a => match a with
    | ⟨0, _⟩ => by show r.val = if (64 : Nat) = 1 then 0 else r.val; rw [if_neg (by decide)]
    | ⟨1, _⟩ => by show (0 : Nat) = if (1 : Nat) = 1 then 0 else p.val; rw [if_pos rfl]
    | ⟨2, _⟩ => by show w.val = if (64 : Nat) = 1 then 0 else w.val; rw [if_neg (by decide)]
    | ⟨3, _⟩ => by show (0 : Nat) = if (1 : Nat) = 1 then 0 else q.val; rw [if_pos rfl])

/-- [64,64] viewed as [64,1,64,1]. -/
theorem units_at (v : S64x64.Idx → α) (h : S64x64.ShapeCasts S64x1x64x1) (r w : Fin 64) :
    shapeCast S64x1x64x1 v h (ix4 r u0 w u0) = v (ix2 r w) :=
  shapeCast_apply v h _ _ (by
    rw [Shape.rowMajor_val_two, Shape.rowMajor_val_four]
    show r.val * 64 + w.val = ((r.val * 1 + 0) * 64 + w.val) * 1 + 0
    omega)

/-- The [1,64,64,64] block without its unit axis. -/
theorem block_at (v : S1x64x64x64.Idx → α) (h : S1x64x64x64.ShapeCasts S64x64x64) (z : Fin 1) (r w k : Fin 64) :
    shapeCast S64x64x64 v h (ix3 r w k) = v (ix4 z r w k) :=
  shapeCast_apply v h _ _ (by
    rw [Shape.rowMajor_val_four, Shape.rowMajor_val_three]
    show ((z.val * 64 + r.val) * 64 + w.val) * 64 + k.val = (r.val * 64 + w.val) * 64 + k.val
    have := z.isLt; omega)

/-! ## The sum over the channels -/

/-- The sum over the last axis of a [64,64,64] vector, at pixel (r, w), is the plain sum of its 64 channels. -/
theorem channel_sum_at (v : FVec Ideal S64x64x64 .f32) (h : S64x64x64.Reduces [2] S64x64) (hφ : FKind.Formats .f32)
    (hacc : (0x00000000#32 : BitVec FTy.f32.bits) = FKind.add.neutral .f32 hφ) (r w : Fin 64) :
    multiReduction .add [2] S64x64 v 0x00000000#32 h hφ hacc (ix2 r w) = ∑ k : Fin 64, v (ix3 r w k) :=
  (Ideal.multiReduction_add_single v 0x00000000#32 h hφ hacc (ix2 r w)).trans
    (Finset.sum_congr rfl fun k _ => congrArg v (funext fun a => Fin.ext (by
      match a with | ⟨0, _⟩ => rfl | ⟨1, _⟩ => rfl | ⟨2, _⟩ => rfl)))

/-! ## The stored value -/

/-- The value the body stores, at block index (z, y, x, o): the channel sum of the loaded block at pixel
    (y / 2, x / 2), times the 64.0 word. -/
theorem pay_at (v0 : Vec Ideal S1x64x64x64 .f32) (z : Fin 1) (y x : Fin 128) (o : Fin 64) :
    k0_pay1 (F := Ideal) v0 (ix4 z y x o)
      = (∑ k : Fin 64, v0 (ix4 z (half y) (half x) k)) * Ideal.ofBits .f32 0x42800000#32 := by
  unfold k0_pay1
  refine (lead_at _ _ z y x o).trans ?_
  refine (channels_at _ _ y x o).trans ?_
  refine (congrFun (shapeCast_self _ _) _).trans ?_
  refine (trail_at _ _ y x).trans ?_
  refine (cells_at _ _ y x).trans ?_
  refine (cell_at _ _ _ _ _ _).trans ?_
  refine (congrFun (shapeCast_self _ _) _).trans ?_
  refine (units_at _ _ _ _).trans ?_
  refine (mulf_apply _ _ _).trans ?_
  refine congrArg₂ (· * ·) ?_ rfl
  refine (channel_sum_at _ _ _ _ _ _).trans ?_
  exact Finset.sum_congr rfl fun k _ => block_at _ _ z _ _ _

end Cert.KernelIdeal.Payload

end
-- ==== Proof.Whole.lean ====
/-
  From blocks to the whole result array.

  The grid has 32 points, one per batch entry. At point `t` the input window holds block `t` of the argument along the
  batch axis (all 64 x 64 x 64 of it) and the output window writes back block `t` of the result (all 128 x 128 x 64 of it):
  both index maps are (t, 0, 0, 0), which is decided once over the 32 points. A block's element at block coordinate `j`
  sits in the array at index x size + j on every axis, so the output block's element (z, y, x, o) is the result at batch
  entry `t`, and the value stored there — the channel sum of the loaded block at pixel (y / 2, x / 2), scaled — reads the
  argument at the same batch entry `t`: point `t` writes back exactly block `t` of the common function. Every batch entry
  is some point's, so the 32 blocks cover the array and the array ends as the common function of the argument.
-/
import proofs.«145988_j14018773254483_2_alg».proof.Proof.Gen.KernelIdeal.Value
import proofs.«145988_j14018773254483_2_alg».proof.Proof.Payload
import proofs.«145988_j14018773254483_2_alg».proof.Proof.Spec
import Idealize.ShloMosaic.Lib.Pipeline.Value
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Upsample

variable (m : (ℓ : Loc nD τ sig) → Buf (Elt Ideal) ℓ) (ρ : Dev nD → PrngReg)

theorem zeros : (![0, 0, 0, 0] : Fin 4 → Nat) = fun _ => 0 := funext fun a => by fin_cases a <;> rfl

/-- The two index maps over the grid: both windows sit at the same batch entry, below 32, and at 0 on the other axes. -/
theorem index_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) < 32 :=
  (by decide +kernel : ∀ t : Fin grid0.N, _)

/-- Every batch entry is some point's output block. -/
theorem index_onto : ∀ q : Fin 32, ∃ t : Fin cfg0.N, win0_1.index t (0 : Fin 4) = q.val :=
  (by decide +kernel : ∀ q : Fin 32, ∃ t : Fin grid0.N, win0_1.index t (0 : Fin 4) = q.val)

/-- An index of an output block by its four coordinates. -/
theorem block_coords (j : S1x128x128x64.Idx) : ∃ (z : Fin 1) (y x : Fin 128) (o : Fin 64), j = ix4 z y x o :=
  ⟨j 0, j 1, j 2, j 3, eq_ix4 j⟩

/-- At point `t`, the stored value at block coordinate (z, y, x, o) is the common function at that element's place in
    the array: the loaded block's pixel (y / 2, x / 2) is the argument's pixel at the same batch entry. -/
theorem stored_at (c : Dev nD) (t : Fin cfg0.N) (z : Fin 1) (y x : Fin 128) (o : Fin 64) :
    k0_pay1 (F := Ideal) (iblk m c 0 t) (ix4 z y x o)
      = result (V m c main_arg0) (((cfg0.win 1).blk t).view.emb (ix4 z y x o)) := by
  obtain ⟨e0, e1, e2, e3, e4, e5, e6, e7⟩ := index_facts t
  refine (Payload.pay_at _ z y x o).trans ?_
  unfold result
  refine congrArg₂ (· * ·) (Finset.sum_congr rfl fun k _ => ?_) rfl
  show V m c main_arg0 (((cfg0.win 0).blk t).view.emb (ix4 z (half y) (half x) k)) = _
  refine congrArg (V m c main_arg0) (funext fun a => Fin.ext ?_)
  have hz : z.val < 1 := z.isLt
  have hy : y.val < 128 := y.isLt
  have hx : x.val < 128 := x.isLt
  match a with
  | ⟨0, _⟩ => show win0_0.index t (0 : Fin 4) * 1 + 1 * z.val = win0_1.index t (0 : Fin 4) * 1 + 1 * z.val; omega
  | ⟨1, _⟩ => show win0_0.index t (1 : Fin 4) * 64 + 1 * (y.val / 2) = (win0_1.index t (1 : Fin 4) * 128 + 1 * y.val) / 2; omega
  | ⟨2, _⟩ => show win0_0.index t (2 : Fin 4) * 64 + 1 * (x.val / 2) = (win0_1.index t (2 : Fin 4) * 128 + 1 * x.val) / 2; omega
  | ⟨3, _⟩ => show win0_0.index t (3 : Fin 4) * 64 + 1 * k.val = k.val; omega

/-- What point `t` writes back is block `t` of the common function of the argument. -/
theorem flushed_eq (c : Dev nD) (t : Fin cfg0.N) :
    (dats m 0 c).flushed 1 t = ((cfg0.win 1).blk t).view.read (Elt Ideal) (result (V m c main_arg0)) := by
  rw [flushed1]
  unfold out0_1
  rw [View.canon_unit_zero zeros]
  simp only [View.ld_unit_zero (S := S1x64x64x64) zeros]
  funext j
  obtain ⟨z, y, x, o, rfl⟩ := block_coords j
  exact stored_at m c t z y x o

/-- An index of the result array is in point `t`'s block iff each coordinate is in the block's range on its axis. -/
theorem mem_block (t : Fin cfg0.N) (i : S32x128x128x64.Idx) :
    i ∈ ((cfg0.win 1).blk t).view.set ↔ ∀ a : Fin 4, win0_1.index t a * S1x128x128x64.size a ≤ (i a).val ∧ (i a).val < win0_1.index t a * S1x128x128x64.size a + S1x128x128x64.size a := by
  show i ∈ ((View.whole main_v0).slice (win0_1.rect t)).set ↔ _
  rw [View.set_slice_whole, Rect.mem_set_unit]
  exact Iff.rfl

/-- The 32 blocks cover the result array: index (b, y, x, o) is in the block of the point whose batch entry is `b`. -/
theorem cover (i : S32x128x128x64.Idx) :
    ∃ t : Fin cfg0.N, (cfg0.win 1).flush t = true ∧ i ∈ ((cfg0.win 1).blk t).view.set := by
  have h0 : (i 0).val < 32 := (i 0).isLt
  have h1 : (i 1).val < 128 := (i 1).isLt
  have h2 : (i 2).val < 128 := (i 2).isLt
  have h3 : (i 3).val < 64 := (i 3).isLt
  obtain ⟨t, ht⟩ := index_onto ⟨(i 0).val, h0⟩
  have q0 : win0_1.index t (0 : Fin 4) = (i 0).val := ht
  obtain ⟨e0, e1, e2, e3, e4, e5, e6, e7⟩ := index_facts t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 128 ≤ (i 2).val ∧ (i 2).val < win0_1.index t (2 : Fin 4) * 128 + 128; omega
  | ⟨3, _⟩ => show win0_1.index t (3 : Fin 4) * 64 ≤ (i 3).val ∧ (i 3).val < win0_1.index t (3 : Fin 4) * 64 + 64; omega

/-- The result array after the run is the common function of the argument as the region finds it. -/
theorem final (c : Dev nD) : (dats m 0 c).arrAt 1 cfg0.N = result (V m c main_arg0) :=
  (dats m 0 c).arrAt_eq_of_cover 1 (result (V m c main_arg0)) (fun t _ => flushed_eq m c t) cover

/-- The kernel's run, read: every weakly fair execution ends with the result array at the common function of the
    argument's launch contents, and the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.lean ====
/-
  A channel sum, scaled by the number of channels and copied to a grid of twice the height and width.

  Both programs compute, from an input `X` over (b, h, w, c) in 32 x 64 x 64 x 64, the array over (b, y, x, o) in
  32 x 128 x 128 x 64 whose entry is (sum over c < 64 of X (b, y / 2, x / 2, c)) * 64, the same for all 64 output
  channels `o` (`Cert.Upsample.result`, Proof/Spec.lean).

  The kernel works one batch entry per grid point: it sums the channels of its [64,64,64] block, scales by the 64.0
  word, and re-lays the [64,64] image as [64,1,64,1] → [64,2,64,2] → [128,128] → [128,128,1] → [128,128,64]; reshapes keep
  the row-major position and broadcasts forget the new axes' coordinates, so block entry (y, x, o) is the image at
  (y / 2, x / 2) (Proof/Payload.lean). The 32 output blocks tile the result along the batch axis, and block `t` reads
  only batch entry `t` of the argument (Proof/Whole.lean). The reference sums the channels of the whole array on the
  host, doubles rows and columns by a broadcast next to the axis followed by a reshape, scales by the same 64.0 word,
  and broadcasts over the output channels (Proof/RefValue.lean).

  The two sides meet with one fact about sums: the kernel's sum over an axis is the plain finite sum, the host's is its
  initial value plus that sum, and the initial value is the zero word, the extended real 0. Nothing else is rearranged —
  same summands, same product with the same word on the same side — so no finiteness of the input is used: the equality
  holds on all extended reals, infinities included.

  The frames of the two kernel programs and the kernel's run come from the generated frame modules; the reference's
  frame is its generated run with the result dropped. The idealization rewrote nothing, so there is nothing to
  preserve.
-/
import proofs.«145988_j14018773254483_2_alg».proof.Defs
import proofs.«145988_j14018773254483_2_alg».proof.Proof.Gen.Kernel
import proofs.«145988_j14018773254483_2_alg».proof.Proof.Gen.Kernel.Skeleton
import proofs.«145988_j14018773254483_2_alg».proof.Proof.Gen.Kernel.Launch
import proofs.«145988_j14018773254483_2_alg».proof.Proof.Gen.Kernel.Points
import proofs.«145988_j14018773254483_2_alg».proof.Proof.Gen.Kernel.Frame
import proofs.«145988_j14018773254483_2_alg».proof.Proof.Gen.KernelIdeal
import proofs.«145988_j14018773254483_2_alg».proof.Proof.Gen.KernelIdeal.Skeleton
import proofs.«145988_j14018773254483_2_alg».proof.Proof.Gen.KernelIdeal.Launch
import proofs.«145988_j14018773254483_2_alg».proof.Proof.Gen.KernelIdeal.Points
import proofs.«145988_j14018773254483_2_alg».proof.Proof.Gen.KernelIdeal.Frame
import proofs.«145988_j14018773254483_2_alg».proof.Proof.Gen.ReferenceIdeal
import proofs.«145988_j14018773254483_2_alg».proof.Proof.Gen.Pre_finite_inputs
import proofs.«145988_j14018773254483_2_alg».proof.Proof.Gen.KernelIdeal.Value
import proofs.«145988_j14018773254483_2_alg».proof.Proof.Gen.ReferenceIdeal.Run
import proofs.«145988_j14018773254483_2_alg».proof.Proof.Gen.ReferenceIdeal.Read
import proofs.«145988_j14018773254483_2_alg».proof.Proof.Spec
import proofs.«145988_j14018773254483_2_alg».proof.Proof.RefValue
import proofs.«145988_j14018773254483_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the argument, both programs end with the result array at the common function of
    that argument. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.stage_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
